-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S2048x1024 : Shape := ⟨2, ![2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1024x1024 .f32) (main_arg5 : FVec F S2048x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024x1024 .f32) (main_arg5 : FVec F S2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S2048x1024 : Shape := ⟨2, ![2048, 1024]⟩
abbrev S1x256x1024 : Shape := ⟨3, ![1, 256, 1024]⟩
abbrev S256x1024 : Shape := ⟨2, ![256, 1024]⟩
abbrev S1x2048x1024 : Shape := ⟨3, ![1, 2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S8x2048x1024, .bf16⟩
  | .hbm, ⟨7, _⟩ => ⟨S8x2048x1024, .bf16⟩
  | .hbm, ⟨8, _⟩ => ⟨S8x2048x1024, .bf16⟩
  | .hbm, ⟨9, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x256x1024, .f32⟩
  | .local _ .vmem, ⟨18, _⟩ => ⟨S1x256x1024, .f32⟩
  | .local _ .vmem, ⟨19, _⟩ => ⟨S1024x1024, .f32⟩
  | .local _ .vmem, ⟨20, _⟩ => ⟨S256x1024, .f32⟩
  | .local _ .vmem, ⟨21, _⟩ => ⟨S256x1024, .f32⟩
  | .local _ .vmem, ⟨22, _⟩ => ⟨S1x256x1024, .f32⟩
  | .local _ .vmem, ⟨23, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S256x1024_S256x1024_0_0 : ∀ a, (![0, 0] : Fin 2 → Nat) a + S256x1024.size a ≤ S256x1024.size a
  h_S256x1024 : 0 < S256x1024.numel
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x2048x1024.size a
  hwx0_4 : ∀ i : grid0.Coords, EltTy.bits .bf16 = 32 ∨ (Rect.block (s := S8x2048x1024) S1x256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x2048x1024.size a
  hwx0_5 : ∀ i : grid0.Coords, EltTy.bits .bf16 = 32 ∨ (Rect.block (s := S8x2048x1024) S1x256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S8x2048x1024.size a
  hwx0_6 : ∀ i : grid0.Coords, EltTy.bits .bf16 = 32 ∨ (Rect.block (s := S8x2048x1024) S1x256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x2048x1024.size a
  hwx1_3 : ∀ i : grid1.Coords, EltTy.bits .f32 = 32 ∨ (Rect.block (s := S8x2048x1024) S1x256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S2048x1024.size a
  hwx1_5 : ∀ i : grid1.Coords, EltTy.bits .f32 = 32 ∨ (Rect.block (s := S2048x1024) S256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S8x2048x1024.size a
  hwx1_6 : ∀ i : grid1.Coords, EltTy.bits .f32 = 32 ∨ (Rect.block (s := S8x2048x1024) S1x256x1024.size (cc1_transform_6 i) (hinb1_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S2048x1024 : Shape := ⟨2, ![2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x2048x1024 : Shape := ⟨3, ![1, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .i1⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1x2048x1024, .f32⟩
  | .hbm, ⟨35, _⟩ => ⟨S8x2048x1024, .f32⟩
  | .hbm, ⟨36, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x1024 : S_.BroadcastsInDim S8x2048x1024 (![] : Fin 0 → Fin S8x2048x1024.rank)
  bcast_S2048x1024_S1x2048x1024_1_2 : S2048x1024.BroadcastsInDim S1x2048x1024 (![1, 2] : Fin 2 → Fin S1x2048x1024.rank)
  bcast_S1x2048x1024_S8x2048x1024_0_1_2 : S1x2048x1024.BroadcastsInDim S8x2048x1024 (![0, 1, 2] : Fin 3 → Fin S8x2048x1024.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelRun.lean ====
/-
  The idealized kernel's run with its result NAMED.

  The program is two kernel launches in a row. After the second, every buffer that outlives the launches holds the
  contents the two launches fold to: the first launch's three outputs are what its grid points wrote back, the second
  launch's output likewise, every other buffer is as it was. The frame run states this for the six arguments; here the
  same launch is read once more at the result buffer, so that a value proof can say what the result holds.
-/
import proofs.«110030_j45999099740288_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the second launch is what that launch's grid points wrote back to it. -/
theorem W2_result (c : Dev nD) : W2 m ρ c (Proc.devRef .tc main_v1) = (dat1 (V1 m ρ) c).arrAt 6 cfg1.N :=
  W2_arr m ρ c 6

set_option backward.isDefEq.respectTransparency.types false in
/-- Every weakly fair execution of the two launches terminates, nothing faulting, with the result buffer at the second
    launch's folded write-backs and the six arguments as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Cert.KernelIdeal.RunValue

end
-- ==== Proof.KernelOps.lean ====
/-
  The idealized kernel's non-pointwise operations, each read at an index on the extended reals: its three matrix
  products (query rows against key rows; weights against value rows; rows against a square matrix) as plain sums
  over the contracted axis, its lane maximum as a fold of `max` and its lane sum as a sum over the row.
-/
import proofs.«110030_j45999099740288_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Ops

open Cert.KernelIdeal Cert.KernelIdeal.Gen Idealize.ShloMosaic Idealize.ShloMosaic.ValueIdx

/-! ## Rows against a square matrix: `[256, 1024] · [1024, 1024]` -/

local notation "Dxw" => dot_S256x1024_S1024x1024_S256x1024_1_0_0_1_n_n

theorem xw_lhs0 (i : S256x1024.Idx) (q : (Dxw).contr.Idx) : ((Dxw).lhsIdx i q 0).val = (i 0).val := by
  unfold DotDims.lhsIdx
  rw [dif_neg (show ¬(0 : Fin S256x1024.rank) ∈ (Dxw).lhsBatch by decide), dif_pos (show (0 : Fin S256x1024.rank) ∈ (Dxw).lhsNonContracting by decide)]
  rfl
theorem xw_lhs1 (i : S256x1024.Idx) (q : (Dxw).contr.Idx) : ((Dxw).lhsIdx i q 1).val = (q ⟨0, by decide⟩).val :=
  (Dxw).lhsIdx_val_of_single rfl i q
theorem xw_rhs0 (i : S256x1024.Idx) (q : (Dxw).contr.Idx) : ((Dxw).rhsIdx i q 0).val = (q ⟨0, by decide⟩).val :=
  (Dxw).rhsIdx_val_of_single rfl i q
theorem xw_rhs1 (i : S256x1024.Idx) (q : (Dxw).contr.Idx) : ((Dxw).rhsIdx i q 1).val = (i 1).val := by
  unfold DotDims.rhsIdx
  rw [dif_neg (show ¬(1 : Fin S1024x1024.rank) ∈ (Dxw).rhsBatch by decide), dif_pos (show (1 : Fin S1024x1024.rank) ∈ (Dxw).rhsNonContracting by decide)]
  rfl

/-- Into a zero accumulator, entry `(p, o)` of rows times a square matrix is `Σ_d a (p, d) · w (d, o)`. -/
theorem matmul_xw_apply {φ₁ φ₂ : FTy} (a : FVec Ideal S256x1024 φ₁) (w : FVec Ideal S1024x1024 φ₂) (p : Fin 256) (o : Fin 1024) :
    matmul (Dxw) none a w (constant S256x1024 .f32 0x00000000#32) (ix2 p o) = ∑ d : Fin 1024, a (ix2 p d) * w (ix2 d o) := by
  simp only [matmul]
  rw [Ideal.matmul_constant_zero_apply, ← Equiv.sum_comp (contrEquiv1 (Dxw) 1024 rfl rfl).symm]
  refine Finset.sum_congr rfl fun k _ => ?_
  have hk := contrEquiv1_symm_val (Dxw) 1024 rfl rfl k
  have el : (Dxw).lhsIdx (ix2 p o) ((contrEquiv1 (Dxw) 1024 rfl rfl).symm k) = ix2 p k := funext fun c => Fin.ext (by
    match c with
    | ⟨0, _⟩ => exact xw_lhs0 _ _
    | ⟨1, _⟩ => exact (xw_lhs1 _ _).trans hk)
  have er : (Dxw).rhsIdx (ix2 p o) ((contrEquiv1 (Dxw) 1024 rfl rfl).symm k) = ix2 k o := funext fun c => Fin.ext (by
    match c with
    | ⟨0, _⟩ => exact (xw_rhs0 _ _).trans hk
    | ⟨1, _⟩ => exact xw_rhs1 _ _)
  rw [el, er]

/-! ## Query rows against key rows: `[256, 1024] · [2048, 1024]ᵀ` -/

local notation "Dqk" => dot_S256x1024_S2048x1024_S256x2048_1_1_0_0_n_n

theorem qk_lhs0 (i : S256x2048.Idx) (q : (Dqk).contr.Idx) : ((Dqk).lhsIdx i q 0).val = (i 0).val := by
  unfold DotDims.lhsIdx
  rw [dif_neg (show ¬(0 : Fin S256x1024.rank) ∈ (Dqk).lhsBatch by decide), dif_pos (show (0 : Fin S256x1024.rank) ∈ (Dqk).lhsNonContracting by decide)]
  rfl
theorem qk_lhs1 (i : S256x2048.Idx) (q : (Dqk).contr.Idx) : ((Dqk).lhsIdx i q 1).val = (q ⟨0, by decide⟩).val :=
  (Dqk).lhsIdx_val_of_single rfl i q
theorem qk_rhs0 (i : S256x2048.Idx) (q : (Dqk).contr.Idx) : ((Dqk).rhsIdx i q 0).val = (i 1).val := by
  unfold DotDims.rhsIdx
  rw [dif_neg (show ¬(0 : Fin S2048x1024.rank) ∈ (Dqk).rhsBatch by decide), dif_pos (show (0 : Fin S2048x1024.rank) ∈ (Dqk).rhsNonContracting by decide)]
  rfl
theorem qk_rhs1 (i : S256x2048.Idx) (q : (Dqk).contr.Idx) : ((Dqk).rhsIdx i q 1).val = (q ⟨0, by decide⟩).val :=
  (Dqk).rhsIdx_val_of_single rfl i q

/-- Into a zero accumulator, entry `(p, t)` of the scores is `Σ_h a (p, h) · k (t, h)`. -/
theorem matmul_qk_apply {φ₁ φ₂ : FTy} (a : FVec Ideal S256x1024 φ₁) (k : FVec Ideal S2048x1024 φ₂) (p : Fin 256) (t : Fin 2048) :
    matmul (Dqk) none a k (constant S256x2048 .f32 0x00000000#32) (ix2 p t) = ∑ h : Fin 1024, a (ix2 p h) * k (ix2 t h) := by
  simp only [matmul]
  rw [Ideal.matmul_constant_zero_apply, ← Equiv.sum_comp (contrEquiv1 (Dqk) 1024 rfl rfl).symm]
  refine Finset.sum_congr rfl fun h _ => ?_
  have hk := contrEquiv1_symm_val (Dqk) 1024 rfl rfl h
  have el : (Dqk).lhsIdx (ix2 p t) ((contrEquiv1 (Dqk) 1024 rfl rfl).symm h) = ix2 p h := funext fun c => Fin.ext (by
    match c with
    | ⟨0, _⟩ => exact qk_lhs0 _ _
    | ⟨1, _⟩ => exact (qk_lhs1 _ _).trans hk)
  have er : (Dqk).rhsIdx (ix2 p t) ((contrEquiv1 (Dqk) 1024 rfl rfl).symm h) = ix2 t h := funext fun c => Fin.ext (by
    match c with
    | ⟨0, _⟩ => exact qk_rhs0 _ _
    | ⟨1, _⟩ => exact (qk_rhs1 _ _).trans hk)
  rw [el, er]

/-! ## Weights against value rows: `[256, 2048] · [2048, 1024]` -/

local notation "Dav" => dot_S256x2048_S2048x1024_S256x1024_1_0_0_1_n_n

theorem av_lhs0 (i : S256x1024.Idx) (q : (Dav).contr.Idx) : ((Dav).lhsIdx i q 0).val = (i 0).val := by
  unfold DotDims.lhsIdx
  rw [dif_neg (show ¬(0 : Fin S256x2048.rank) ∈ (Dav).lhsBatch by decide), dif_pos (show (0 : Fin S256x2048.rank) ∈ (Dav).lhsNonContracting by decide)]
  rfl
theorem av_lhs1 (i : S256x1024.Idx) (q : (Dav).contr.Idx) : ((Dav).lhsIdx i q 1).val = (q ⟨0, by decide⟩).val :=
  (Dav).lhsIdx_val_of_single rfl i q
theorem av_rhs0 (i : S256x1024.Idx) (q : (Dav).contr.Idx) : ((Dav).rhsIdx i q 0).val = (q ⟨0, by decide⟩).val :=
  (Dav).rhsIdx_val_of_single rfl i q
theorem av_rhs1 (i : S256x1024.Idx) (q : (Dav).contr.Idx) : ((Dav).rhsIdx i q 1).val = (i 1).val := by
  unfold DotDims.rhsIdx
  rw [dif_neg (show ¬(1 : Fin S2048x1024.rank) ∈ (Dav).rhsBatch by decide), dif_pos (show (1 : Fin S2048x1024.rank) ∈ (Dav).rhsNonContracting by decide)]
  rfl

/-- Into a zero accumulator, entry `(p, d)` of weights times values is `Σ_t a (p, t) · v (t, d)`. -/
theorem matmul_av_apply {φ₁ φ₂ : FTy} (a : FVec Ideal S256x2048 φ₁) (v : FVec Ideal S2048x1024 φ₂) (p : Fin 256) (d : Fin 1024) :
    matmul (Dav) none a v (constant S256x1024 .f32 0x00000000#32) (ix2 p d) = ∑ t : Fin 2048, a (ix2 p t) * v (ix2 t d) := by
  simp only [matmul]
  rw [Ideal.matmul_constant_zero_apply, ← Equiv.sum_comp (contrEquiv1 (Dav) 2048 rfl rfl).symm]
  refine Finset.sum_congr rfl fun t _ => ?_
  have hk := contrEquiv1_symm_val (Dav) 2048 rfl rfl t
  have el : (Dav).lhsIdx (ix2 p d) ((contrEquiv1 (Dav) 2048 rfl rfl).symm t) = ix2 p t := funext fun c => Fin.ext (by
    match c with
    | ⟨0, _⟩ => exact av_lhs0 _ _
    | ⟨1, _⟩ => exact (av_lhs1 _ _).trans hk)
  have er : (Dav).rhsIdx (ix2 p d) ((contrEquiv1 (Dav) 2048 rfl rfl).symm t) = ix2 t d := funext fun c => Fin.ext (by
    match c with
    | ⟨0, _⟩ => exact (av_rhs0 _ _).trans hk
    | ⟨1, _⟩ => exact av_rhs1 _ _)
  rw [el, er]

/-! ## The lane reductions of a `[256, 2048]` tile -/

/-- Row `p` with lane `t` put back is `(p, t)`. -/
theorem lift_row (p : Fin 256) (t : Fin (S256x2048.size 1)) :
    (reduces_S256x2048_S256).lift (ix1 p) t = ix2 p (⟨t.val, t.isLt⟩ : Fin 2048) := by
  funext c; apply Fin.ext
  match c with
  | ⟨0, _⟩ => rfl
  | ⟨1, _⟩ => rfl

/-- The lane maximum of row `p`, from the pattern of −∞: the fold of `max` over the row. -/
theorem laneMax_apply (src : FVec Ideal S256x2048 .f32) (p : Fin 256) :
    multiReduction .maximumf [1] S256 src 0xFF800000#32 reduces_S256x2048_S256 (.inl rfl) rfl (ix1 p)
      = (Finset.univ : Finset (Fin 2048)).fold max (Ideal.ofBits .f32 0xFF800000#32) (fun t => src (ix2 p t)) := by
  refine (Ideal.multiReduction_maximumf_single src 0xFF800000#32 reduces_S256x2048_S256 (.inl rfl) rfl (ix1 p)).trans ?_
  exact congrArg (fun f => Finset.fold max (Ideal.ofBits .f32 0xFF800000#32) f (Finset.univ : Finset (Fin 2048)))
    (funext fun t => congrArg src (lift_row p t))

/-- The lane sum of row `p`, from zero: the sum over the row. -/
theorem laneSum_apply (src : FVec Ideal S256x2048 .f32) (p : Fin 256) :
    multiReduction .add [1] S256 src 0x00000000#32 reduces_S256x2048_S256 (.inl rfl) rfl (ix1 p)
      = ∑ t : Fin 2048, src (ix2 p t) := by
  refine (Ideal.multiReduction_add_single src 0x00000000#32 reduces_S256x2048_S256 (.inl rfl) rfl (ix1 p)).trans ?_
  exact Finset.sum_congr rfl fun t _ => congrArg src (lift_row p t)

end Cert.KernelIdeal.Ops

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Spec.lean ====
/-
  The function both programs compute, on the extended reals.

  For a batch entry `b` and a query row `s`: project the row of `x` by the three weight matrices (queries by `qw`,
  keys by `kw`, values by `vw`), take the scores of the query row against every key row, normalise them by a softmax
  (subtract the row maximum, exponentiate, divide by the row sum), mix the value rows by those weights, add the row of
  `x` back, multiply by the output matrix, apply the leaky rectifier and add the bias row.

  Everything is stated row by row: `rowOut` is what one query row becomes given the key rows and value rows of its
  batch entry, and `G` instantiates it at the projections of the whole argument arrays. A row tile of the kernel and
  the reference's whole-array operations are both `rowOut` of the same rows, so no law of arithmetic beyond
  re-indexing is needed, and no finiteness.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The pattern of −∞ that both programs start their row maximum from. -/
abbrev negInf : EReal := Ideal.ofBits .f32 0xFF800000#32
/-- The pattern of zero the rectifier compares with. -/
abbrev zeroF : EReal := Ideal.ofBits .f32 0x00000000#32
/-- The rectifier's slope on the negative side, as the one f32 pattern both programs print. -/
abbrev slope : EReal := Ideal.ofBits .f32 0x3E4CCCCD#32

/-- Scores of one query row against the 2048 key rows: `t ↦ Σ_h q h · keys t h`. -/
def scores (q : Fin 1024 → EReal) (keys : Fin 2048 → Fin 1024 → EReal) (t : Fin 2048) : EReal :=
  ∑ h : Fin 1024, q h * keys t h

/-- The row maximum, as both programs take it: the fold of `max` from −∞ over the row, and once more against −∞. -/
def rowMax (s : Fin 2048 → EReal) : EReal := max negInf ((Finset.univ : Finset (Fin 2048)).fold max negInf s)

/-- The exponentials of a row shifted by its maximum. -/
def shiftedExp (s : Fin 2048 → EReal) (t : Fin 2048) : EReal := Ideal.exp (s t - rowMax s)

/-- The softmax weights of a row. -/
def softmax (s : Fin 2048 → EReal) (t : Fin 2048) : EReal :=
  Ideal.div (shiftedExp s t) (∑ t' : Fin 2048, shiftedExp s t')

/-- The leaky rectifier: `x` where `x ≥ 0`, `slope · x` elsewhere. -/
def leaky (x : EReal) : EReal := Scalar.select (Ideal.cmp .oge x zeroF) x (slope * x)

/-- The value rows mixed by the softmax weights, plus the residual row: entry `d`. -/
def mixed (q : Fin 1024 → EReal) (keys vals : Fin 2048 → Fin 1024 → EReal) (irow : Fin 1024 → EReal) (d : Fin 1024) : EReal :=
  (∑ t : Fin 2048, softmax (scores q keys) t * vals t d) + irow d

/-- What one query row becomes: entry `o` of `leaky (mixed · mw) + bias row`. -/
def rowOut (q : Fin 1024 → EReal) (keys vals : Fin 2048 → Fin 1024 → EReal) (irow : Fin 1024 → EReal)
    (mw : Fin 1024 → Fin 1024 → EReal) (brow : Fin 1024 → EReal) (o : Fin 1024) : EReal :=
  leaky (∑ d : Fin 1024, mixed q keys vals irow d * mw d o) + brow o

/-- Entry `(b, s, h)` of `x · w`, the product over the last axis of `x`. -/
def proj (x : (⟨3, ![8, 2048, 1024]⟩ : Shape).Idx → EReal) (w : (⟨2, ![1024, 1024]⟩ : Shape).Idx → EReal)
    (b : Fin 8) (s : Fin 2048) (h : Fin 1024) : EReal :=
  ∑ d : Fin 1024, x (ix3 b s d) * w (ix2 d h)

/-- The projection as an array. -/
def projArr (x : (⟨3, ![8, 2048, 1024]⟩ : Shape).Idx → EReal) (w : (⟨2, ![1024, 1024]⟩ : Shape).Idx → EReal) :
    (⟨3, ![8, 2048, 1024]⟩ : Shape).Idx → EReal := fun j => proj x w (j 0) (j 1) (j 2)

/-- One row of the result from the three projected arrays, the input, the output matrix and the bias: the second
    kernel's view (it is handed the projections as arrays). -/
def fromProjected (Q K V x : (⟨3, ![8, 2048, 1024]⟩ : Shape).Idx → EReal) (mw : (⟨2, ![1024, 1024]⟩ : Shape).Idx → EReal)
    (bias : (⟨2, ![2048, 1024]⟩ : Shape).Idx → EReal) : (⟨3, ![8, 2048, 1024]⟩ : Shape).Idx → EReal := fun j =>
  rowOut (fun h => Q (ix3 (j 0) (j 1) h)) (fun t h => K (ix3 (j 0) t h)) (fun t e => V (ix3 (j 0) t e))
    (fun e => x (ix3 (j 0) (j 1) e)) (fun d o => mw (ix2 d o)) (fun o => bias (ix2 (j 1) o)) (j 2)

/-- THE RESULT as one function of the six argument arrays (in the order of the programs' parameters: the input, the
    key, query and value weights, the output matrix, the bias). -/
def G (x : (⟨3, ![8, 2048, 1024]⟩ : Shape).Idx → EReal) (kw qw vw mw : (⟨2, ![1024, 1024]⟩ : Shape).Idx → EReal)
    (bias : (⟨2, ![2048, 1024]⟩ : Shape).Idx → EReal) : (⟨3, ![8, 2048, 1024]⟩ : Shape).Idx → EReal :=
  fromProjected (projArr x qw) (projArr x kw) (projArr x vw) x mw bias

end Cert.Attn

end
-- ==== Proof.KernelRows.lean ====
/-
  The two kernel bodies, read row by row on the extended reals.

  The projection body leaves, at row `p` and column `h` of its tile, `Σ_d x (p, d) · w (d, h)`: one row of the input tile
  times the weight matrix (the changes of float format are the identity here, the product starts from zero).

  The attention body leaves, at row `p` and column `o` of its tile, `rowOut` of: row `p` of the query tile, all the key
  rows and value rows of the batch entry, row `p` of the input tile, the output matrix and row `p` of the bias tile. Its
  stages are named here (`tileMax`, `tileExp`, `tileSoft`, `tileLeaky`) and each is read at `(p, ·)` as the
  corresponding row function of the specification: the lane maximum and lane sum of a `[256, 2048]` tile are the row
  maximum and row sum of row `p`, kept as a column and spread back over the row.
-/
import proofs.«110030_j45999099740288_1_alg».proof.Proof.Gen.KernelIdeal.Skeleton
import proofs.«110030_j45999099740288_1_alg».proof.Proof.KernelOps
import proofs.«110030_j45999099740288_1_alg».proof.Proof.LibColumn
import proofs.«110030_j45999099740288_1_alg».proof.Proof.Spec
import Idealize.ShloMosaic.Lib.ValueLayout

noncomputable section

namespace Cert.KernelIdeal.Rows

open Cert.KernelIdeal Cert.KernelIdeal.Gen Cert.KernelIdeal.Ops Idealize.ShloMosaic Idealize.ShloMosaic.ValueIdx
open Cert.Attn Cert.LibColumn

/-! ## The projection body -/

/-- Row `p`, column `h` of a projected tile: the row of the input tile times the weight matrix. -/
theorem proj_apply (x : Vec Ideal S1x256x1024 .f32) (w : Vec Ideal S1024x1024 .f32) (u : Fin 1) (p : Fin 256) (h : Fin 1024) :
    k0_pay2 (F := Ideal) x w (ix3 u p h) = ∑ d : Fin 1024, x (ix3 (0 : Fin 1) p d) * w (ix2 d h) := by
  unfold k0_pay2 k0_pay1
  refine (shapeCast_ab_1ab_apply _ _ u p h).trans ?_
  refine (matmul_xw_apply _ _ p h).trans ?_
  refine Finset.sum_congr rfl fun d _ => ?_
  show shapeCast S256x1024 x shapeCasts_S1x256x1024_S256x1024 (ix2 p d) * w (ix2 d h) = _
  exact congrArg (· * w (ix2 d h)) (shapeCast_1ab_ab_apply x _ p d)

/-- The three projection payloads are one function of the input tile and a weight matrix. -/
theorem pay3_eq (x : Vec Ideal S1x256x1024 .f32) (w : Vec Ideal S1024x1024 .f32) : k0_pay3 (F := Ideal) x w = k0_pay2 x w := rfl
theorem pay4_eq (x : Vec Ideal S1x256x1024 .f32) (w : Vec Ideal S1024x1024 .f32) : k0_pay4 (F := Ideal) x w = k0_pay2 x w := rfl

/-! ## The attention body's stages -/

/-- The row maxima of a score tile, spread back over the rows. -/
def tileMax (s : FVec Ideal S256x2048 .f32) : FVec Ideal S256x2048 .f32 :=
  broadcastTo S256x2048 (shapeCast S256x1 (maximumf (broadcast S256 (Scalar.ofBits (F := Ideal) .f32 0xFF800000#32))
    (multiReduction .maximumf [1] S256 s 0xFF800000#32 reduces_S256x2048_S256 (.inl rfl) rfl)) shapeCasts_S256_S256x1) broadcasts_S256x1_S256x2048

/-- The exponentials of a score tile shifted by its row maxima. -/
def tileExp (s : FVec Ideal S256x2048 .f32) : FVec Ideal S256x2048 .f32 := exp (subf s (tileMax s))

/-- The softmax weights of a score tile. -/
def tileSoft (s : FVec Ideal S256x2048 .f32) : FVec Ideal S256x2048 .f32 :=
  divf (tileExp s) (broadcastTo S256x2048 (shapeCast S256x1
    (multiReduction .add [1] S256 (tileExp s) 0x00000000#32 reduces_S256x2048_S256 (.inl rfl) rfl) shapeCasts_S256_S256x1) broadcasts_S256x1_S256x2048)

/-- The leaky rectifier of a tile. -/
def tileLeaky (u : FVec Ideal S256x1024 .f32) : FVec Ideal S256x1024 .f32 :=
  select (cmpf .oge u (broadcast S256x1024 (Scalar.ofBits (F := Ideal) .f32 0x00000000#32))) u
    (mulf (broadcast S256x1024 (Scalar.ofBits (F := Ideal) .f32 0x3E4CCCCD#32)) u)

/-- The score tile: the query tile's rows against the key rows. -/
def tileScores (q : Vec Ideal S1x256x1024 .bf16) (k : Vec Ideal S1x2048x1024 .bf16) : FVec Ideal S256x2048 .f32 :=
  matmul dot_S256x1024_S2048x1024_S256x2048_1_1_0_0_n_n none
    (shapeCast S256x1024 q shapeCasts_S1x256x1024_S256x1024 : FVec Ideal S256x1024 .bf16)
    (shapeCast S2048x1024 k shapeCasts_S1x2048x1024_S2048x1024 : FVec Ideal S2048x1024 .bf16) (constant S256x2048 .f32 0x00000000#32)

/-- The mixed tile: softmax weights against the value rows, plus the input tile. -/
def tileMixed (q : Vec Ideal S1x256x1024 .bf16) (k v : Vec Ideal S1x2048x1024 .bf16) (i : Vec Ideal S1x256x1024 .f32) : FVec Ideal S256x1024 .f32 :=
  addf (matmul dot_S256x2048_S2048x1024_S256x1024_1_0_0_1_n_n none (truncf .bf16 (tileSoft (tileScores q k)) bitsLt_bf16_f32 : FVec Ideal S256x2048 .bf16)
      (shapeCast S2048x1024 v shapeCasts_S1x2048x1024_S2048x1024 : FVec Ideal S2048x1024 .bf16) (constant S256x1024 .f32 0x00000000#32))
    (shapeCast S256x1024 i shapeCasts_S1x256x1024_S256x1024 : FVec Ideal S256x1024 .f32)

/-- The body's payload is the composition of those stages. -/
theorem pay_eq (q : Vec Ideal S1x256x1024 .bf16) (k v : Vec Ideal S1x2048x1024 .bf16) (i : Vec Ideal S1x256x1024 .f32)
    (mw : Vec Ideal S1024x1024 .f32) (bias : Vec Ideal S256x1024 .f32) :
    k1_pay2 (F := Ideal) q k v i mw bias
      = addf (tileLeaky (matmul dot_S256x1024_S1024x1024_S256x1024_1_0_0_1_n_n none (truncf .bf16 (tileMixed q k v i) bitsLt_bf16_f32 : FVec Ideal S256x1024 .bf16)
          (truncf .bf16 (mw : FVec Ideal S1024x1024 .f32) bitsLt_bf16_f32 : FVec Ideal S1024x1024 .bf16) (constant S256x1024 .f32 0x00000000#32))) (bias : FVec Ideal S256x1024 .f32) := rfl

/-! ## The stages read at a row -/

theorem tileMax_apply (s : FVec Ideal S256x2048 .f32) (p : Fin 256) (t : Fin 2048) :
    tileMax s (ix2 p t) = rowMax (fun t' => s (ix2 p t')) := by
  unfold tileMax
  refine (broadcastTo_a1_ab_apply _ _ p t).trans ?_
  refine (shapeCast_a_a1_apply _ _ p 0).trans ?_
  show max (Ideal.ofBits .f32 0xFF800000#32) (multiReduction .maximumf [1] S256 s 0xFF800000#32 reduces_S256x2048_S256 (.inl rfl) rfl (ix1 p)) = _
  exact congrArg (max negInf) (laneMax_apply s p)

theorem tileExp_apply (s : FVec Ideal S256x2048 .f32) (p : Fin 256) (t : Fin 2048) :
    tileExp s (ix2 p t) = shiftedExp (fun t' => s (ix2 p t')) t := by
  show Ideal.exp (s (ix2 p t) - tileMax s (ix2 p t)) = _
  rw [tileMax_apply]
  rfl

theorem tileSoft_apply (s : FVec Ideal S256x2048 .f32) (p : Fin 256) (t : Fin 2048) :
    tileSoft s (ix2 p t) = softmax (fun t' => s (ix2 p t')) t := by
  unfold tileSoft
  show Ideal.div (tileExp s (ix2 p t)) _ = _
  rw [tileExp_apply]
  refine congrArg (Ideal.div _) ?_
  refine (broadcastTo_a1_ab_apply _ _ p t).trans ((shapeCast_a_a1_apply _ _ p 0).trans ?_)
  refine (laneSum_apply (tileExp s) p).trans ?_
  exact Finset.sum_congr rfl fun t' _ => tileExp_apply s p t'

theorem tileScores_apply (q : Vec Ideal S1x256x1024 .bf16) (k : Vec Ideal S1x2048x1024 .bf16) (p : Fin 256) (t : Fin 2048) :
    tileScores q k (ix2 p t) = scores (fun h => q (ix3 (0 : Fin 1) p h)) (fun t' h => k (ix3 (0 : Fin 1) t' h)) t := by
  unfold tileScores
  refine (matmul_qk_apply _ _ p t).trans ?_
  exact Finset.sum_congr rfl fun h _ => by
    rw [shapeCast_1ab_ab_apply q _ p h, shapeCast_1ab_ab_apply k _ t h]

theorem tileMixed_apply (q : Vec Ideal S1x256x1024 .bf16) (k v : Vec Ideal S1x2048x1024 .bf16) (i : Vec Ideal S1x256x1024 .f32)
    (p : Fin 256) (d : Fin 1024) :
    tileMixed q k v i (ix2 p d)
      = mixed (fun h => q (ix3 (0 : Fin 1) p h)) (fun t h => k (ix3 (0 : Fin 1) t h)) (fun t e => v (ix3 (0 : Fin 1) t e))
          (fun e => i (ix3 (0 : Fin 1) p e)) d := by
  unfold tileMixed
  show _ + shapeCast S256x1024 i shapeCasts_S1x256x1024_S256x1024 (ix2 p d) = _
  rw [shapeCast_1ab_ab_apply i _ p d]
  refine congrArg (· + i (ix3 (0 : Fin 1) p d)) ?_
  refine (matmul_av_apply _ _ p d).trans ?_
  refine Finset.sum_congr rfl fun t _ => ?_
  show tileSoft (tileScores q k) (ix2 p t) * shapeCast S2048x1024 v shapeCasts_S1x2048x1024_S2048x1024 (ix2 t d) = _
  rw [tileSoft_apply, shapeCast_1ab_ab_apply v _ t d,
    show (fun t' => tileScores q k (ix2 p t')) = scores (fun h => q (ix3 (0 : Fin 1) p h)) (fun t' h => k (ix3 (0 : Fin 1) t' h))
      from funext fun t' => tileScores_apply q k p t']

/-- THE ATTENTION BODY AT A ROW: entry `(p, o)` of the payload is `rowOut` of row `p`'s data. -/
theorem pay_apply (q : Vec Ideal S1x256x1024 .bf16) (k v : Vec Ideal S1x2048x1024 .bf16) (i : Vec Ideal S1x256x1024 .f32)
    (mw : Vec Ideal S1024x1024 .f32) (bias : Vec Ideal S256x1024 .f32) (p : Fin 256) (o : Fin 1024) :
    k1_pay2 (F := Ideal) q k v i mw bias (ix2 p o)
      = rowOut (fun h => q (ix3 (0 : Fin 1) p h)) (fun t h => k (ix3 (0 : Fin 1) t h)) (fun t e => v (ix3 (0 : Fin 1) t e))
          (fun e => i (ix3 (0 : Fin 1) p e)) (fun d o' => mw (ix2 d o')) (fun o' => bias (ix2 p o')) o := by
  rw [pay_eq]
  unfold rowOut
  show leaky (matmul dot_S256x1024_S1024x1024_S256x1024_1_0_0_1_n_n none (truncf .bf16 (tileMixed q k v i) bitsLt_bf16_f32 : FVec Ideal S256x1024 .bf16)
      (truncf .bf16 (mw : FVec Ideal S1024x1024 .f32) bitsLt_bf16_f32 : FVec Ideal S1024x1024 .bf16) (constant S256x1024 .f32 0x00000000#32) (ix2 p o)) + bias (ix2 p o) = _
  refine congrArg (fun z => leaky z + bias (ix2 p o)) ?_
  refine (matmul_xw_apply _ _ p o).trans ?_
  refine Finset.sum_congr rfl fun d _ => ?_
  show tileMixed q k v i (ix2 p d) * mw (ix2 d o) = _
  rw [tileMixed_apply]

end Cert.KernelIdeal.Rows

end
-- ==== Proof.KernelValue.lean ====
/-
  From the tiles the grid points write back to the whole arrays.

  Both launches run over an 8 × 8 grid: point `t` is batch entry `t / 8` and row tile `t % 8` (256 rows). The first
  launch writes, at point `t`, rows `256 (t % 8) … + 255` of batch entry `t / 8` of each of the three projections, from
  the same rows of the input and a whole weight matrix; the tiles of the 64 points tile the `[8, 2048, 1024]` arrays, so
  after the launch the three arrays ARE the projections (`projArr`). The second launch reads the query tile and the input
  tile at the same rows, ALL key rows and value rows of the batch entry, the whole output matrix and rows
  `256 (t % 8) …` of the bias, and writes the same rows of the result: by the row reading of its body the result array is
  `fromProjected` of the arrays it was handed — which are the projections — and so `G` of the six arguments.
-/
import proofs.«110030_j45999099740288_1_alg».proof.Proof.Gen.KernelIdeal.Frame
import proofs.«110030_j45999099740288_1_alg».proof.Proof.KernelRows
import Idealize.ShloMosaic.Lib.Pipeline.Value

set_option maxRecDepth 16384

noncomputable section

namespace Cert.KernelIdeal.BlockValue

open Cert.KernelIdeal Cert.KernelIdeal.Gen Cert.KernelIdeal.Rows Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## A tile's value from the arrays' rows, over variables -/

set_option backward.isDefEq.respectTransparency.types false in
/-- A projected tile at a local index is the projection of the whole arrays at the array index, when the input tile's
    row is the array's row, the weight tile is the whole matrix and the columns agree. -/
theorem proj_block (xb : Vec Ideal S1x256x1024 .f32) (wb : Vec Ideal S1024x1024 .f32)
    (X : S8x2048x1024.Idx → EReal) (Wm : S1024x1024.Idx → EReal) (y : S1x256x1024.Idx) (j : S8x2048x1024.Idx)
    (hx : ∀ d : Fin 1024, xb (ix3 (0 : Fin 1) (y 1) d) = X (ix3 (j 0) (j 1) d))
    (hw : ∀ d h : Fin 1024, wb (ix2 d h) = Wm (ix2 d h))
    (hj : (j 2 : Fin 1024) = y 2) :
    k0_pay2 (F := Ideal) xb wb y = projArr X Wm j := by
  refine ((congrArg (k0_pay2 (F := Ideal) xb wb) (eq_ix3 y)).trans (proj_apply xb wb (y 0) (y 1) (y 2))).trans ?_
  unfold projArr proj
  rw [hj]
  exact Finset.sum_congr rfl fun d _ => by rw [hx, hw]

set_option backward.isDefEq.respectTransparency.types false in
/-- An output tile of the second launch at a local index is `fromProjected` of the whole arrays at the array index,
    when each tile's rows are the arrays' rows. -/
theorem attn_block (qb : Vec Ideal S1x256x1024 .bf16) (kb vb : Vec Ideal S1x2048x1024 .bf16) (ib : Vec Ideal S1x256x1024 .f32)
    (mwb : Vec Ideal S1024x1024 .f32) (bb : Vec Ideal S256x1024 .f32)
    (Q K V X : S8x2048x1024.Idx → EReal) (MW : S1024x1024.Idx → EReal) (B : S2048x1024.Idx → EReal)
    (y : S1x256x1024.Idx) (j : S8x2048x1024.Idx)
    (hq : ∀ h : Fin 1024, qb (ix3 (0 : Fin 1) (y 1) h) = Q (ix3 (j 0) (j 1) h))
    (hk : ∀ (t : Fin 2048) (h : Fin 1024), kb (ix3 (0 : Fin 1) t h) = K (ix3 (j 0) t h))
    (hv : ∀ (t : Fin 2048) (e : Fin 1024), vb (ix3 (0 : Fin 1) t e) = V (ix3 (j 0) t e))
    (hi : ∀ e : Fin 1024, ib (ix3 (0 : Fin 1) (y 1) e) = X (ix3 (j 0) (j 1) e))
    (hm : ∀ d o : Fin 1024, mwb (ix2 d o) = MW (ix2 d o))
    (hb : ∀ o : Fin 1024, bb (ix2 (y 1) o) = B (ix2 (j 1) o))
    (hj : (j 2 : Fin 1024) = y 2) :
    k1_pay1 (F := Ideal) (k1_pay2 qb kb vb ib mwb bb) y = fromProjected Q K V X MW B j := by
  have e1 : k1_pay1 (F := Ideal) (k1_pay2 qb kb vb ib mwb bb) y = k1_pay2 (F := Ideal) qb kb vb ib mwb bb (ix2 (y 1) (y 2)) := by
    unfold k1_pay1
    exact (congrArg _ (eq_ix3 y)).trans (shapeCast_ab_1ab_apply _ _ (y 0) (y 1) (y 2))
  rw [e1, pay_apply]
  unfold fromProjected
  rw [hj, funext hq, funext hi, funext hb,
    show (fun t h => kb (ix3 (0 : Fin 1) t h)) = fun t h => K (ix3 (j 0) t h) from funext fun t => funext fun h => hk t h,
    show (fun t e => vb (ix3 (0 : Fin 1) t e)) = fun t e => V (ix3 (j 0) t e) from funext fun t => funext fun e => hv t e,
    show (fun d o' => mwb (ix2 d o')) = fun d o => MW (ix2 d o) from funext fun d => funext fun o => hm d o]

/-! ## The first launch: the three projections -/

/-- The first launch's index maps in closed form, decided over the 64 points: the input tile and the three output
    tiles sit at batch entry `t / 8`, row tile `t % 8`; the weight matrices are staged whole. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0
    ∧ win0_6.index t (0 : Fin 3) = t.val / 8 ∧ win0_6.index t (1 : Fin 3) = t.val % 8 ∧ win0_6.index t (2 : Fin 3) = 0 :=
  (by decide +kernel : ∀ t : Fin grid0.N, _)

/-- WHAT POINT `t` WRITES BACK to the query projection is tile `t` of `x · qw`. -/
theorem flushed0_4_eq (c : Dev nD) (t : Fin cfg0.N) :
    (dat0 (V0 m ρ) c).flushed 4 t = ((cfg0.win 4).blk t).view.read (Elt Ideal)
      (projArr (m ((c : Thread nD τ).loc main_arg0)) (m ((c : Thread nD τ).loc main_arg2))) := by
  show (cfg0.win 4).cut (grid0.coords t) ((dat0 (V0 m ρ) c).after 4 t) = _
  rw [after0_4]
  unfold out0_4
  rw [View.canon_unit_zero hz3]
  simp only [View.ld_unit_zero (S := S1x256x1024) hz3, View.ld_unit_zero (S := S1024x1024) hz2]
  obtain ⟨a00, a01, a02, a10, a11, a20, a21, a30, a31, a40, a41, a42, a50, a51, a52, a60, a61, a62⟩ := idx0 t
  funext y
  have hy0 : (y 0).val < 1 := (y 0).isLt
  refine proj_block (iblk0 (V0 m ρ) c 0 t) (iblk0 (V0 m ρ) c 1 t) (m ((c : Thread nD τ).loc main_arg0)) (m ((c : Thread nD τ).loc main_arg2))
    y (((cfg0.win 4).blk t).view.emb y) (fun d => ?_) (fun d h => ?_) ?_
  · show m ((c : Thread nD τ).loc main_arg0) (((cfg0.win 0).blk t).view.emb (ix3 (0 : Fin 1) (y 1) d)) = _
    refine congrArg _ (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 256 + 1 * (y 1).val = win0_4.index t (1 : Fin 3) * 256 + 1 * (y 1).val; omega
    | ⟨2, _⟩ => show win0_0.index t (2 : Fin 3) * 1024 + 1 * d.val = d.val; omega
  · show m ((c : Thread nD τ).loc main_arg2) (((cfg0.win 1).blk t).view.emb (ix2 d h)) = _
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * h.val = h.val; omega
  · apply Fin.ext
    show win0_4.index t (2 : Fin 3) * 1024 + 1 * (y 2).val = (y 2).val
    omega

/-- WHAT POINT `t` WRITES BACK to the key projection is tile `t` of `x · kw`. -/
theorem flushed0_5_eq (c : Dev nD) (t : Fin cfg0.N) :
    (dat0 (V0 m ρ) c).flushed 5 t = ((cfg0.win 5).blk t).view.read (Elt Ideal)
      (projArr (m ((c : Thread nD τ).loc main_arg0)) (m ((c : Thread nD τ).loc main_arg1))) := by
  show (cfg0.win 5).cut (grid0.coords t) ((dat0 (V0 m ρ) c).after 5 t) = _
  rw [after0_5]
  unfold out0_5
  rw [View.canon_unit_zero hz3]
  simp only [View.ld_unit_zero (S := S1x256x1024) hz3, View.ld_unit_zero (S := S1024x1024) hz2]
  rw [pay3_eq]
  obtain ⟨a00, a01, a02, a10, a11, a20, a21, a30, a31, a40, a41, a42, a50, a51, a52, a60, a61, a62⟩ := idx0 t
  funext y
  have hy0 : (y 0).val < 1 := (y 0).isLt
  refine proj_block (iblk0 (V0 m ρ) c 0 t) (iblk0 (V0 m ρ) c 2 t) (m ((c : Thread nD τ).loc main_arg0)) (m ((c : Thread nD τ).loc main_arg1))
    y (((cfg0.win 5).blk t).view.emb y) (fun d => ?_) (fun d h => ?_) ?_
  · show m ((c : Thread nD τ).loc main_arg0) (((cfg0.win 0).blk t).view.emb (ix3 (0 : Fin 1) (y 1) d)) = _
    refine congrArg _ (funext fun a => Fin.ext ?_)
    match a with
    | ⟨0, _⟩ => show win0_0.index t (0 : Fin 3) * 1 + 1 * 0 = win0_5.index t (0 : Fin 3) * 1 + 1 * (y 0).val; omega
    | ⟨1, _⟩ => show win0_0.index t (1 : Fin 3) * 256 + 1 * (y 1).val = win0_5.index t (1 : Fin 3) * 256 + 1 * (y 1).val; omega
    | ⟨2, _⟩ => show win0_0.index t (2 : Fin 3) * 1024 + 1 * d.val = d.val; omega
  · show m ((c : Thread nD τ).loc main_arg1) (((cfg0.win 2).blk t).view.emb (ix2 d h)) = _
    refine congrArg _ (funext fun a => Fin.ext ?_)
    match a with
    | ⟨0, _⟩ => show win0_2.index t (0 : Fin 2) * 1024 + 1 * d.val = d.val; omega
    | ⟨1, _⟩ => show win0_2.index t (1 : Fin 2) * 1024 + 1 * h.val = h.val; omega
  · apply Fin.ext
    show win0_5.index t (2 : Fin 3) * 1024 + 1 * (y 2).val = (y 2).val
    omega

/-- WHAT POINT `t` WRITES BACK to the value projection is tile `t` of `x · vw`. -/
theorem flushed0_6_eq (c : Dev nD) (t : Fin cfg0.N) :
    (dat0 (V0 m ρ) c).flushed 6 t = ((cfg0.win 6).blk t).view.read (Elt Ideal)
      (projArr (m ((c : Thread nD τ).loc main_arg0)) (m ((c : Thread nD τ).loc main_arg3))) := by
  show (cfg0.win 6).cut (grid0.coords t) ((dat0 (V0 m ρ) c).after 6 t) = _
  rw [after0_6]
  unfold out0_6
  rw [View.canon_unit_zero hz3]
  simp only [View.ld_unit_zero (S := S1x256x1024) hz3, View.ld_unit_zero (S := S1024x1024) hz2]
  rw [pay4_eq]
  obtain ⟨a00, a01, a02, a10, a11, a20, a21, a30, a31, a40, a41, a42, a50, a51, a52, a60, a61, a62⟩ := idx0 t
  funext y
  have hy0 : (y 0).val < 1 := (y 0).isLt
  refine proj_block (iblk0 (V0 m ρ) c 0 t) (iblk0 (V0 m ρ) c 3 t) (m ((c : Thread nD τ).loc main_arg0)) (m ((c : Thread nD τ).loc main_arg3))
    y (((cfg0.win 6).blk t).view.emb y) (fun d => ?_) (fun d h => ?_) ?_
  · show m ((c : Thread nD τ).loc main_arg0) (((cfg0.win 0).blk t).view.emb (ix3 (0 : Fin 1) (y 1) d)) = _
    refine congrArg _ (funext fun a => Fin.ext ?_)
    match a with
    | ⟨0, _⟩ => show win0_0.index t (0 : Fin 3) * 1 + 1 * 0 = win0_6.index t (0 : Fin 3) * 1 + 1 * (y 0).val; omega
    | ⟨1, _⟩ => show win0_0.index t (1 : Fin 3) * 256 + 1 * (y 1).val = win0_6.index t (1 : Fin 3) * 256 + 1 * (y 1).val; omega
    | ⟨2, _⟩ => show win0_0.index t (2 : Fin 3) * 1024 + 1 * d.val = d.val; omega
  · show m ((c : Thread nD τ).loc main_arg3) (((cfg0.win 3).blk t).view.emb (ix2 d h)) = _
    refine congrArg _ (funext fun a => Fin.ext ?_)
    match a with
    | ⟨0, _⟩ => show win0_3.index t (0 : Fin 2) * 1024 + 1 * d.val = d.val; omega
    | ⟨1, _⟩ => show win0_3.index t (1 : Fin 2) * 1024 + 1 * h.val = h.val; omega
  · apply Fin.ext
    show win0_6.index t (2 : Fin 3) * 1024 + 1 * (y 2).val = (y 2).val
    omega

/-- An index of a projection array is in point `t`'s tile iff each coordinate is in the tile's range on its axis. -/
theorem mem_blk0_4 (t : Fin cfg0.N) (i : S8x2048x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v0_0).slice (win0_4.rect t)).set ↔ _
  rw [View.set_slice_whole, Rect.mem_set_unit]
  exact Iff.rfl
theorem mem_blk0_5 (t : Fin cfg0.N) (i : S8x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v0_1).slice (win0_5.rect t)).set ↔ _
  rw [View.set_slice_whole, Rect.mem_set_unit]
  exact Iff.rfl
theorem mem_blk0_6 (t : Fin cfg0.N) (i : S8x2048x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v0_2).slice (win0_6.rect t)).set ↔ _
  rw [View.set_slice_whole, Rect.mem_set_unit]
  exact Iff.rfl

/-- The point whose tile holds row `i 1` of batch entry `i 0`. -/
def pointOf0 (i : S8x2048x1024.Idx) : Fin cfg0.N :=
  ⟨8 * (i 0).val + (i 1).val / 256, by
    have h0 : (i 0).val < 8 := (i 0).isLt
    have h1 : (i 1).val < 2048 := (i 1).isLt
    show _ < grid0.N
    rw [N_0]; omega⟩

theorem pointOf0_val (i : S8x2048x1024.Idx) : (pointOf0 i).val = 8 * (i 0).val + (i 1).val / 256 := rfl

/-- Every index of a projection array is in some point's tile. -/
theorem cover0_4 (i : S8x2048x1024.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 1024 := (i 2).isLt
  refine ⟨pointOf0 i, flush0_4 _, ?_⟩
  rw [mem_blk0_4]
  obtain ⟨a00, a01, a02, a10, a11, a20, a21, a30, a31, a40, a41, a42, a50, a51, a52, a60, a61, a62⟩ := idx0 (pointOf0 i)
  have hv := pointOf0_val i
  intro a
  match a with
  | ⟨0, _⟩ => show win0_4.index (pointOf0 i) (0 : Fin 3) * 1 ≤ (i 0).val ∧ (i 0).val < win0_4.index (pointOf0 i) (0 : Fin 3) * 1 + 1; omega
  | ⟨1, _⟩ => show win0_4.index (pointOf0 i) (1 : Fin 3) * 256 ≤ (i 1).val ∧ (i 1).val < win0_4.index (pointOf0 i) (1 : Fin 3) * 256 + 256; omega
  | ⟨2, _⟩ => show win0_4.index (pointOf0 i) (2 : Fin 3) * 1024 ≤ (i 2).val ∧ (i 2).val < win0_4.index (pointOf0 i) (2 : Fin 3) * 1024 + 1024; omega
theorem cover0_5 (i : S8x2048x1024.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  refine ⟨pointOf0 i, flush0_5 _, ?_⟩
  rw [mem_blk0_5]
  obtain ⟨a00, a01, a02, a10, a11, a20, a21, a30, a31, a40, a41, a42, a50, a51, a52, a60, a61, a62⟩ := idx0 (pointOf0 i)
  have hv := pointOf0_val i
  intro a
  match a with
  | ⟨0, _⟩ => show win0_5.index (pointOf0 i) (0 : Fin 3) * 1 ≤ (i 0).val ∧ (i 0).val < win0_5.index (pointOf0 i) (0 : Fin 3) * 1 + 1; omega
  | ⟨1, _⟩ => show win0_5.index (pointOf0 i) (1 : Fin 3) * 256 ≤ (i 1).val ∧ (i 1).val < win0_5.index (pointOf0 i) (1 : Fin 3) * 256 + 256; omega
  | ⟨2, _⟩ => show win0_5.index (pointOf0 i) (2 : Fin 3) * 1024 ≤ (i 2).val ∧ (i 2).val < win0_5.index (pointOf0 i) (2 : Fin 3) * 1024 + 1024; omega
theorem cover0_6 (i : S8x2048x1024.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 1024 := (i 2).isLt
  refine ⟨pointOf0 i, flush0_6 _, ?_⟩
  rw [mem_blk0_6]
  obtain ⟨a00, a01, a02, a10, a11, a20, a21, a30, a31, a40, a41, a42, a50, a51, a52, a60, a61, a62⟩ := idx0 (pointOf0 i)
  have hv := pointOf0_val i
  intro a
  match a with
  | ⟨0, _⟩ => show win0_6.index (pointOf0 i) (0 : Fin 3) * 1 ≤ (i 0).val ∧ (i 0).val < win0_6.index (pointOf0 i) (0 : Fin 3) * 1 + 1; omega
  | ⟨1, _⟩ => show win0_6.index (pointOf0 i) (1 : Fin 3) * 256 ≤ (i 1).val ∧ (i 1).val < win0_6.index (pointOf0 i) (1 : Fin 3) * 256 + 256; omega
  | ⟨2, _⟩ => show win0_6.index (pointOf0 i) (2 : Fin 3) * 1024 ≤ (i 2).val ∧ (i 2).val < win0_6.index (pointOf0 i) (2 : Fin 3) * 1024 + 1024; omega

/-- AFTER THE FIRST LAUNCH the three output arrays are the three projections. -/
theorem final0_4 (c : Dev nD) : (dat0 (V0 m ρ) c).arrAt 4 cfg0.N = projArr (m ((c : Thread nD τ).loc main_arg0)) (m ((c : Thread nD τ).loc main_arg2)) :=
  (dat0 (V0 m ρ) c).arrAt_eq_of_cover 4 _ (fun t _ => flushed0_4_eq m ρ c t) cover0_4
theorem final0_5 (c : Dev nD) : (dat0 (V0 m ρ) c).arrAt 5 cfg0.N = projArr (m ((c : Thread nD τ).loc main_arg0)) (m ((c : Thread nD τ).loc main_arg1)) :=
  (dat0 (V0 m ρ) c).arrAt_eq_of_cover 5 _ (fun t _ => flushed0_5_eq m ρ c t) cover0_5
theorem final0_6 (c : Dev nD) : (dat0 (V0 m ρ) c).arrAt 6 cfg0.N = projArr (m ((c : Thread nD τ).loc main_arg0)) (m ((c : Thread nD τ).loc main_arg3)) :=
  (dat0 (V0 m ρ) c).arrAt_eq_of_cover 6 _ (fun t _ => flushed0_6_eq m ρ c t) cover0_6

/-! ## What the second launch finds -/

theorem V1_queries (c : Dev nD) : V1 m ρ c main_v0_0 = projArr (m ((c : Thread nD τ).loc main_arg0)) (m ((c : Thread nD τ).loc main_arg2)) :=
  (W1_arr m ρ c 4).trans (final0_4 m ρ c)
theorem V1_keys (c : Dev nD) : V1 m ρ c main_v0_1 = projArr (m ((c : Thread nD τ).loc main_arg0)) (m ((c : Thread nD τ).loc main_arg1)) :=
  (W1_arr m ρ c 5).trans (final0_5 m ρ c)
theorem V1_values (c : Dev nD) : V1 m ρ c main_v0_2 = projArr (m ((c : Thread nD τ).loc main_arg0)) (m ((c : Thread nD τ).loc main_arg3)) :=
  (W1_arr m ρ c 6).trans (final0_6 m ρ c)
theorem V1_input (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_mlp (c : Dev nD) : V1 m ρ c main_arg4 = m ((c : Thread nD τ).loc main_arg4) :=
  W1_of_ne m ρ c main_arg4 (by decide)
theorem V1_bias (c : Dev nD) : V1 m ρ c main_arg5 = m ((c : Thread nD τ).loc main_arg5) :=
  W1_of_ne m ρ c main_arg5 (by decide)

/-! ## The second launch: the result -/

/-- The second launch's index maps in closed form, decided over the 64 points: the query, input and output tiles sit at
    batch entry `t / 8`, row tile `t % 8`; the keys and values of batch entry `t / 8` are staged whole, the output
    matrix whole, the bias at row tile `t % 8`. -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 2) = 0 ∧ win1_4.index t (1 : Fin 2) = 0
    ∧ win1_5.index t (0 : Fin 2) = t.val % 8 ∧ win1_5.index t (1 : Fin 2) = 0
    ∧ win1_6.index t (0 : Fin 3) = t.val / 8 ∧ win1_6.index t (1 : Fin 3) = t.val % 8 ∧ win1_6.index t (2 : Fin 3) = 0 :=
  (by decide +kernel : ∀ t : Fin grid1.N, _)

/-- The result as the second launch computes it from what it finds. -/
abbrev found (c : Dev nD) : S8x2048x1024.Idx → EReal :=
  fromProjected (V1 m ρ c main_v0_0) (V1 m ρ c main_v0_1) (V1 m ρ c main_v0_2) (V1 m ρ c main_arg0) (V1 m ρ c main_arg4) (V1 m ρ c main_arg5)

/-- WHAT POINT `t` WRITES BACK to the result is tile `t` of `fromProjected` of the arrays the launch finds. -/
theorem flushed1_6_eq (c : Dev nD) (t : Fin cfg1.N) :
    (dat1 (V1 m ρ) c).flushed 6 t = ((cfg1.win 6).blk t).view.read (Elt Ideal) (found m ρ c) := by
  show (cfg1.win 6).cut (grid1.coords t) ((dat1 (V1 m ρ) c).after 6 t) = _
  rw [after1_6]
  unfold out1_6
  rw [View.canon_unit_zero hz3]
  simp only [View.ld_unit_zero (S := S1x256x1024) hz3, View.ld_unit_zero (S := S1x2048x1024) hz3, View.ld_unit_zero (S := S1024x1024) hz2,
    View.ld_unit_zero (S := S256x1024) hz2]
  obtain ⟨a00, a01, a02, a10, a11, a12, a20, a21, a22, a30, a31, a32, a40, a41, a50, a51, a60, a61, a62⟩ := idx1 t
  funext y
  have hy0 : (y 0).val < 1 := (y 0).isLt
  have hy1 : (y 1).val < 256 := (y 1).isLt
  refine attn_block (iblk1 (V1 m ρ) c 0 t) (iblk1 (V1 m ρ) c 1 t) (iblk1 (V1 m ρ) c 2 t) (iblk1 (V1 m ρ) c 3 t) (iblk1 (V1 m ρ) c 4 t) (iblk1 (V1 m ρ) c 5 t)
    (V1 m ρ c main_v0_0) (V1 m ρ c main_v0_1) (V1 m ρ c main_v0_2) (V1 m ρ c main_arg0) (V1 m ρ c main_arg4) (V1 m ρ c main_arg5)
    y (((cfg1.win 6).blk t).view.emb y) (fun h => ?_) (fun t' h => ?_) (fun t' e => ?_) (fun e => ?_) (fun d o => ?_) (fun o => ?_) ?_
  · show V1 m ρ c main_v0_0 (((cfg1.win 0).blk t).view.emb (ix3 (0 : Fin 1) (y 1) h)) = _
    refine congrArg _ (funext fun a => Fin.ext ?_)
    match a with
    | ⟨0, _⟩ => show win1_0.index t (0 : Fin 3) * 1 + 1 * 0 = win1_6.index t (0 : Fin 3) * 1 + 1 * (y 0).val; omega
    | ⟨1, _⟩ => show win1_0.index t (1 : Fin 3) * 256 + 1 * (y 1).val = win1_6.index t (1 : Fin 3) * 256 + 1 * (y 1).val; omega
    | ⟨2, _⟩ => show win1_0.index t (2 : Fin 3) * 1024 + 1 * h.val = h.val; omega
  · show V1 m ρ c main_v0_1 (((cfg1.win 1).blk t).view.emb (ix3 (0 : Fin 1) t' h)) = _
    refine congrArg _ (funext fun a => Fin.ext ?_)
    match a with
    | ⟨0, _⟩ => show win1_1.index t (0 : Fin 3) * 1 + 1 * 0 = win1_6.index t (0 : Fin 3) * 1 + 1 * (y 0).val; omega
    | ⟨1, _⟩ => show win1_1.index t (1 : Fin 3) * 2048 + 1 * t'.val = t'.val; omega
    | ⟨2, _⟩ => show win1_1.index t (2 : Fin 3) * 1024 + 1 * h.val = h.val; omega
  · show V1 m ρ c main_v0_2 (((cfg1.win 2).blk t).view.emb (ix3 (0 : Fin 1) t' e)) = _
    refine congrArg _ (funext fun a => Fin.ext ?_)
    match a with
    | ⟨0, _⟩ => show win1_2.index t (0 : Fin 3) * 1 + 1 * 0 = win1_6.index t (0 : Fin 3) * 1 + 1 * (y 0).val; omega
    | ⟨1, _⟩ => show win1_2.index t (1 : Fin 3) * 2048 + 1 * t'.val = t'.val; omega
    | ⟨2, _⟩ => show win1_2.index t (2 : Fin 3) * 1024 + 1 * e.val = e.val; omega
  · show V1 m ρ c main_arg0 (((cfg1.win 3).blk t).view.emb (ix3 (0 : Fin 1) (y 1) e)) = _
    refine congrArg _ (funext fun a => Fin.ext ?_)
    match a with
    | ⟨0, _⟩ => show win1_3.index t (0 : Fin 3) * 1 + 1 * 0 = win1_6.index t (0 : Fin 3) * 1 + 1 * (y 0).val; omega
    | ⟨1, _⟩ => show win1_3.index t (1 : Fin 3) * 256 + 1 * (y 1).val = win1_6.index t (1 : Fin 3) * 256 + 1 * (y 1).val; omega
    | ⟨2, _⟩ => show win1_3.index t (2 : Fin 3) * 1024 + 1 * e.val = e.val; omega
  · show V1 m ρ c main_arg4 (((cfg1.win 4).blk t).view.emb (ix2 d o)) = _
    refine congrArg _ (funext fun a => Fin.ext ?_)
    match a with
    | ⟨0, _⟩ => show win1_4.index t (0 : Fin 2) * 1024 + 1 * d.val = d.val; omega
    | ⟨1, _⟩ => show win1_4.index t (1 : Fin 2) * 1024 + 1 * o.val = o.val; omega
  · show V1 m ρ c main_arg5 (((cfg1.win 5).blk t).view.emb (ix2 (y 1) o)) = _
    refine congrArg _ (funext fun a => Fin.ext ?_)
    match a with
    | ⟨0, _⟩ => show win1_5.index t (0 : Fin 2) * 256 + 1 * (y 1).val = win1_6.index t (1 : Fin 3) * 256 + 1 * (y 1).val; omega
    | ⟨1, _⟩ => show win1_5.index t (1 : Fin 2) * 1024 + 1 * o.val = o.val; omega
  · apply Fin.ext
    show win1_6.index t (2 : Fin 3) * 1024 + 1 * (y 2).val = (y 2).val
    omega

theorem mem_blk1_6 (t : Fin cfg1.N) (i : S8x2048x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v1).slice (win1_6.rect t)).set ↔ _
  rw [View.set_slice_whole, Rect.mem_set_unit]
  exact Iff.rfl

def pointOf1 (i : S8x2048x1024.Idx) : Fin cfg1.N :=
  ⟨8 * (i 0).val + (i 1).val / 256, by
    have h0 : (i 0).val < 8 := (i 0).isLt
    have h1 : (i 1).val < 2048 := (i 1).isLt
    show _ < grid1.N
    rw [N_1]; omega⟩

theorem pointOf1_val (i : S8x2048x1024.Idx) : (pointOf1 i).val = 8 * (i 0).val + (i 1).val / 256 := rfl

theorem cover1_6' (i : S8x2048x1024.Idx) : ∃ t : Fin cfg1.N, (cfg1.win 6).flush t = true ∧ i ∈ ((cfg1.win 6).blk t).view.set := by
  have h0 : (i 0).val < 8 := (i 0).isLt
  have h1 : (i 1).val < 2048 := (i 1).isLt
  have h2 : (i 2).val < 1024 := (i 2).isLt
  refine ⟨pointOf1 i, flush1_6 _, ?_⟩
  rw [mem_blk1_6]
  obtain ⟨a00, a01, a02, a10, a11, a12, a20, a21, a22, a30, a31, a32, a40, a41, a50, a51, a60, a61, a62⟩ := idx1 (pointOf1 i)
  have hv := pointOf1_val i
  intro a
  match a with
  | ⟨0, _⟩ => show win1_6.index (pointOf1 i) (0 : Fin 3) * 1 ≤ (i 0).val ∧ (i 0).val < win1_6.index (pointOf1 i) (0 : Fin 3) * 1 + 1; omega
  | ⟨1, _⟩ => show win1_6.index (pointOf1 i) (1 : Fin 3) * 256 ≤ (i 1).val ∧ (i 1).val < win1_6.index (pointOf1 i) (1 : Fin 3) * 256 + 256; omega
  | ⟨2, _⟩ => show win1_6.index (pointOf1 i) (2 : Fin 3) * 1024 ≤ (i 2).val ∧ (i 2).val < win1_6.index (pointOf1 i) (2 : Fin 3) * 1024 + 1024; omega

/-- AFTER THE SECOND LAUNCH the result array is `G` of the six arguments. -/
theorem final1_6 (c : Dev nD) :
    (dat1 (V1 m ρ) c).arrAt 6 cfg1.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((dat1 (V1 m ρ) c).arrAt_eq_of_cover 6 (found m ρ c) (fun t _ => flushed1_6_eq m ρ c t) cover1_6').trans ?_
  unfold found G
  rw [V1_queries, V1_keys, V1_values, V1_input, V1_mlp, V1_bias]

end Cert.KernelIdeal.BlockValue

end
-- ==== Proof.RefIsSpec.lean ====
/-
  The reference, stage by stage, is the row function of the specification.

  Each stage of the reference's run (the generated read-at-an-index lemmas) is read at coordinates `(b, s, ·)`: the three
  projections are `proj`; the scores of query row `(b, s)` against the key rows of batch entry `b` are `scores`; the
  row maximum (the host's reduce with a maximum body, a fold of `max` from −∞ over the row, and once more against −∞) is
  `rowMax`; the exponentials, their sum from zero and the quotient are `softmax`; the mix with the value rows plus the
  input row is `mixed`; the product with the output matrix, the rectifier and the bias row are `rowOut`.
-/
import proofs.«110030_j45999099740288_1_alg».proof.Proof.Gen.ReferenceIdeal.Read
import proofs.«110030_j45999099740288_1_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn

variable (x0 : (⟨S8x2048x1024, .f32⟩ : BufTy).Contents (Elt Ideal)) (x1 x2 x3 x4 : (⟨S1024x1024, .f32⟩ : BufTy).Contents (Elt Ideal))
  (x5 : (⟨S2048x1024, .f32⟩ : BufTy).Contents (Elt Ideal))

/-! ## The three projections -/

theorem queries_apply (b : Fin 8) (s : Fin 2048) (h : Fin 1024) :
    val_main_v0 (F := Ideal) x0 x2 (ix3 b s h) = proj x0 x2 b s h := by
  rw [val_main_v0_apply]
  exact Finset.sum_congr rfl fun k _ => by
    rw [show lidx_main_v0 (ix3 b s h) k = ix3 b s k from funext fun a => Fin.ext (by match a with | ⟨0, _⟩ => rfl | ⟨1, _⟩ => rfl | ⟨2, _⟩ => rfl),
      show ridx_main_v0 (ix3 b s h) k = ix2 k h from funext fun a => Fin.ext (by match a with | ⟨0, _⟩ => rfl | ⟨1, _⟩ => rfl)]

theorem keys_apply (b : Fin 8) (s : Fin 2048) (h : Fin 1024) :
    val_main_v1 (F := Ideal) x0 x1 (ix3 b s h) = proj x0 x1 b s h := by
  rw [val_main_v1_apply]
  exact Finset.sum_congr rfl fun k _ => by
    rw [show lidx_main_v1 (ix3 b s h) k = ix3 b s k from funext fun a => Fin.ext (by match a with | ⟨0, _⟩ => rfl | ⟨1, _⟩ => rfl | ⟨2, _⟩ => rfl),
      show ridx_main_v1 (ix3 b s h) k = ix2 k h from funext fun a => Fin.ext (by match a with | ⟨0, _⟩ => rfl | ⟨1, _⟩ => rfl)]

theorem values_apply (b : Fin 8) (s : Fin 2048) (h : Fin 1024) :
    val_main_v14 (F := Ideal) x0 x3 (ix3 b s h) = proj x0 x3 b s h := by
  rw [val_main_v14_apply]
  exact Finset.sum_congr rfl fun k _ => by
    rw [show lidx_main_v14 (ix3 b s h) k = ix3 b s k from funext fun a => Fin.ext (by match a with | ⟨0, _⟩ => rfl | ⟨1, _⟩ => rfl | ⟨2, _⟩ => rfl),
      show ridx_main_v14 (ix3 b s h) k = ix2 k h from funext fun a => Fin.ext (by match a with | ⟨0, _⟩ => rfl | ⟨1, _⟩ => rfl)]

/-! ## The scores and their softmax -/

/-- The scores of query row `(b, s)` in terms of the projected rows. -/
abbrev sc (b : Fin 8) (s : Fin 2048) : Fin 2048 → EReal :=
  scores (fun h => proj x0 x2 b s h) (fun t h => proj x0 x1 b t h)

theorem scores_apply (b : Fin 8) (s t : Fin 2048) :
    val_main_v2 (F := Ideal) x0 x1 x2 (ix3 b s t) = sc x0 x1 x2 b s t := by
  rw [val_main_v2_apply]
  exact Finset.sum_congr rfl fun k _ => by
    rw [show lidx_main_v2 (ix3 b s t) k = ix3 b s k from funext fun a => Fin.ext (by match a with | ⟨0, _⟩ => rfl | ⟨1, _⟩ => rfl | ⟨2, _⟩ => rfl),
      show ridx_main_v2 (ix3 b s t) k = ix3 b t k from funext fun a => Fin.ext (by match a with | ⟨0, _⟩ => rfl | ⟨1, _⟩ => rfl | ⟨2, _⟩ => rfl),
      queries_apply, keys_apply]

/-- The reduced index `(b, s)` with the key coordinate put back is `(b, s, t)`. -/
theorem lift_key (hr : S8x2048x2048.Reduces [2] S8x2048) (b : Fin 8) (s : Fin 2048) (t : Fin (S8x2048x2048.size 2)) :
    hr.lift (ix2 b s) t = ix3 b s (⟨t.val, t.isLt⟩ : Fin 2048) := by
  funext c; apply Fin.ext
  match c with
  | ⟨0, _⟩ => rfl
  | ⟨1, _⟩ => rfl
  | ⟨2, _⟩ => rfl

theorem rowMax_apply (b : Fin 8) (s : Fin 2048) :
    val_main_v5 (F := Ideal) x0 x1 x2 (ix2 b s) = rowMax (sc x0 x1 x2 b s) := by
  have hr : S8x2048x2048.Reduces [2] S8x2048 := by decide
  rw [val_main_v5_apply, val_main_v4_apply, val_main_cst_0_apply]
  unfold val_main_v3
  rw [Host.reduce_eq_fold_single FloatOps.maximumf _ _ reducesTo_S8x2048x2048_S8x2048_d2 hr h_S_]
  rw [val_main_cst_apply]
  show max (Ideal.ofBits .f32 0xFF800000#32) (Finset.fold max (Ideal.ofBits .f32 0xFF800000#32) _ Finset.univ) = _
  unfold rowMax
  refine congrArg (max negInf) ?_
  exact congrArg (fun f => Finset.fold max negInf f (Finset.univ : Finset (Fin 2048)))
    (funext fun t => (congrArg (val_main_v2 (F := Ideal) x0 x1 x2) (lift_key hr b s t)).trans (scores_apply x0 x1 x2 b s _))

theorem shiftedExp_apply (b : Fin 8) (s t : Fin 2048) :
    val_main_v9 (F := Ideal) x0 x1 x2 (ix3 b s t) = shiftedExp (sc x0 x1 x2 b s) t := by
  rw [val_main_v9_apply, val_main_v8_apply, val_main_v7_apply, val_main_v6_apply, scores_apply,
    show idx_main_v6 (idx_main_v7 (ix3 b s t)) = ix2 b s from funext fun a => Fin.ext (by match a with | ⟨0, _⟩ => rfl | ⟨1, _⟩ => rfl),
    rowMax_apply]
  rfl

theorem expSum_apply (b : Fin 8) (s : Fin 2048) :
    val_main_v10 (F := Ideal) x0 x1 x2 (ix2 b s) = ∑ t : Fin 2048, shiftedExp (sc x0 x1 x2 b s) t := by
  rw [val_main_v10_apply, val_main_cst_1_apply]
  show Ideal.ofBits .f32 0x00000000#32 + _ = _
  rw [Ideal.ofBits_zero_f32, zero_add]
  exact Finset.sum_congr rfl fun t _ => by
    rw [show idx_main_v10 (ix2 b s) t = ix3 b s t from funext fun a => Fin.ext (by match a with | ⟨0, _⟩ => rfl | ⟨1, _⟩ => rfl | ⟨2, _⟩ => rfl),
      shiftedExp_apply]

theorem softmax_apply (b : Fin 8) (s t : Fin 2048) :
    val_main_v13 (F := Ideal) x0 x1 x2 (ix3 b s t) = softmax (sc x0 x1 x2 b s) t := by
  rw [val_main_v13_apply, val_main_v12_apply, val_main_v11_apply, shiftedExp_apply,
    show idx_main_v11 (idx_main_v12 (ix3 b s t)) = ix2 b s from funext fun a => Fin.ext (by match a with | ⟨0, _⟩ => rfl | ⟨1, _⟩ => rfl),
    expSum_apply]
  rfl

/-! ## The mix, the output matrix, the rectifier and the bias -/

/-- The mixed row of query row `(b, s)` in terms of the projected rows and the input row. -/
abbrev mx (b : Fin 8) (s : Fin 2048) : Fin 1024 → EReal :=
  mixed (fun h => proj x0 x2 b s h) (fun t h => proj x0 x1 b t h) (fun t e => proj x0 x3 b t e) (fun e => x0 (ix3 b s e))

theorem mixed_apply (b : Fin 8) (s : Fin 2048) (d : Fin 1024) :
    val_main_v16 (F := Ideal) x0 x1 x2 x3 (ix3 b s d) = mx x0 x1 x2 x3 b s d := by
  rw [val_main_v16_apply, val_main_v15_apply]
  show _ + _ = _ + _
  refine congrArg (· + x0 (ix3 b s d)) ?_
  exact Finset.sum_congr rfl fun t _ => by
    rw [show lidx_main_v15 (ix3 b s d) t = ix3 b s t from funext fun a => Fin.ext (by match a with | ⟨0, _⟩ => rfl | ⟨1, _⟩ => rfl | ⟨2, _⟩ => rfl),
      show ridx_main_v15 (ix3 b s d) t = ix3 b t d from funext fun a => Fin.ext (by match a with | ⟨0, _⟩ => rfl | ⟨1, _⟩ => rfl | ⟨2, _⟩ => rfl),
      softmax_apply, values_apply]

theorem preact_apply (b : Fin 8) (s : Fin 2048) (o : Fin 1024) :
    val_main_v17 (F := Ideal) x0 x1 x2 x3 x4 (ix3 b s o) = ∑ d : Fin 1024, mx x0 x1 x2 x3 b s d * x4 (ix2 d o) := by
  rw [val_main_v17_apply]
  exact Finset.sum_congr rfl fun d _ => by
    rw [show lidx_main_v17 (ix3 b s o) d = ix3 b s d from funext fun a => Fin.ext (by match a with | ⟨0, _⟩ => rfl | ⟨1, _⟩ => rfl | ⟨2, _⟩ => rfl),
      show ridx_main_v17 (ix3 b s o) d = ix2 d o from funext fun a => Fin.ext (by match a with | ⟨0, _⟩ => rfl | ⟨1, _⟩ => rfl),
      mixed_apply]

theorem bias_apply (b : Fin 8) (s : Fin 2048) (o : Fin 1024) :
    val_main_v24 (F := Ideal) x5 (ix3 b s o) = x5 (ix2 s o) := by
  rw [val_main_v24_apply, val_main_v23_apply]
  exact congrArg x5 (funext fun a => Fin.ext (by match a with | ⟨0, _⟩ => rfl | ⟨1, _⟩ => rfl))

/-- THE REFERENCE IS `G`: its last stage, as a function of the six arguments, is the specification. -/
theorem result_eq : val_main_v25 (F := Ideal) x0 x1 x2 x3 x4 x5 = G x0 x1 x2 x3 x4 x5 := by
  funext j
  obtain ⟨b, s, o, rfl⟩ : ∃ (b : Fin 8) (s : Fin 2048) (o : Fin 1024), j = ix3 b s o := ⟨j 0, j 1, j 2, eq_ix3 j⟩
  rw [val_main_v25_apply, val_main_v22_apply, val_main_v19_apply, val_main_v21_apply, val_main_v18_apply, val_main_v20_apply,
    val_main_cst_2_apply, val_main_cst_3_apply, preact_apply, bias_apply]
  rfl

end Cert.ReferenceIdeal.RefValue

end
-- ==== Proof.lean ====
/-
  An attention layer with a residual, an output matrix, a leaky rectifier and a bias, as two tiled kernels against the
  whole-array reference: equal results on the extended reals.

  The mathematics. For batch entry `b` and row `s` both programs compute

      G (b, s, o) = leaky (Σ_d (Σ_t softmax_t (q_s · k_t) · v_t,d + x_s,d) · mlp_d,o) + bias_s,o

  with `q`, `k`, `v` the rows of `x` times the three weight matrices and the softmax taken over the 2048 key rows
  `t` of the batch entry (Spec.lean: `rowOut`, `G`). The kernel does it in two launches over 8 × 8 grids of 256-row
  tiles — first the three projections, then everything else with all key and value rows of the batch entry resident —
  the reference in whole-array operations. A change of float format is the identity on the extended reals, a matrix
  product into a zero accumulator is the plain sum, a lane reduction is the row's fold, and both programs apply the
  same operations to the same rows in the same order; so every row of the kernel's tiles and every row of the
  reference's arrays is literally `rowOut` of the same data, and the only work is re-indexing: tiles to arrays
  (KernelValue.lean), tile operations to rows (KernelRows.lean, KernelOps.lean), array operations to rows
  (RefIsSpec.lean). No law of arithmetic that could fail at an infinity is used, and the inputs' finiteness is never
  opened. The idealization rewrote nothing, so `preserves` is trivial; the three frames are the generated ones.
-/
import proofs.«110030_j45999099740288_1_alg».proof.Defs
import proofs.«110030_j45999099740288_1_alg».proof.Proof.Gen.Kernel
import proofs.«110030_j45999099740288_1_alg».proof.Proof.Gen.Kernel.Skeleton
import proofs.«110030_j45999099740288_1_alg».proof.Proof.Gen.Kernel.Launch
import proofs.«110030_j45999099740288_1_alg».proof.Proof.Gen.Kernel.Points
import proofs.«110030_j45999099740288_1_alg».proof.Proof.Gen.Kernel.Frame
import proofs.«110030_j45999099740288_1_alg».proof.Proof.Gen.KernelIdeal
import proofs.«110030_j45999099740288_1_alg».proof.Proof.Gen.KernelIdeal.Skeleton
import proofs.«110030_j45999099740288_1_alg».proof.Proof.Gen.KernelIdeal.Launch
import proofs.«110030_j45999099740288_1_alg».proof.Proof.Gen.KernelIdeal.Points
import proofs.«110030_j45999099740288_1_alg».proof.Proof.Gen.KernelIdeal.Frame
import proofs.«110030_j45999099740288_1_alg».proof.Proof.Gen.ReferenceIdeal
import proofs.«110030_j45999099740288_1_alg».proof.Proof.Gen.ReferenceIdeal.Run
import proofs.«110030_j45999099740288_1_alg».proof.Proof.Gen.ReferenceIdeal.Read
import proofs.«110030_j45999099740288_1_alg».proof.Proof.Gen.Pre_finite_inputs
import proofs.«110030_j45999099740288_1_alg».proof.Proof.KernelRun
import proofs.«110030_j45999099740288_1_alg».proof.Proof.KernelValue
import proofs.«110030_j45999099740288_1_alg».proof.Proof.RefIsSpec
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at `G` of the six arguments: the kernel's by its tiles (the second launch's result
    array, read through the first launch's projections), the reference's stage by stage. -/
theorem algebraic : Cert.algebraic_KernelIdeal_ReferenceIdeal := by
  intro m ρ m' ρ' _ hagree
  refine ⟨fun c => Cert.Attn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.BlockValue.final1_6 m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq]
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
